-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512x512 .f32) (main_arg12 : FVec F S512x512 .f32) (main_arg13 : FVec F S512x512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_v63 main_v67

def fn_part2 {F : FTy → Type} [FloatOps F] (main_arg7 : FVec F S512 .f32) (main_arg8 : FVec F S512 .f32) (main_arg9 : FVec F S512 .f32) (main_arg10 : FVec F S512x512 .f32) (main_arg11 : FVec F S512x512 .f32) (main_arg12 : FVec F S512x512 .f32) (main_arg13 : FVec F S512x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512x512 .f32) (main_arg6 : FVec F S512 .f32) (main_arg7 : FVec F S512 .f32) (main_arg8 : FVec F S512 .f32) (main_arg9 : FVec F S512 .f32) (main_arg10 : FVec F S512x512 .f32) (main_arg11 : FVec F S512x512 .f32) (main_arg12 : FVec F S512x512 .f32) (main_arg13 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x512 .f32) (main_arg1 : FVec F S16384x512 .f32) (main_arg2 : FVec F S512x512 .f32) (main_arg3 : FVec F S512x512 .f32) (main_arg4 : FVec F S512x512 .f32) (main_arg5 : FVec F S512x512 .f32) (main_arg6 : FVec F S512 .f32) (main_arg7 : FVec F S512 .f32) (main_arg8 : FVec F S512 .f32) (main_arg9 : FVec F S512 .f32) (main_arg10 : FVec F S512x512 .f32) (main_arg11 : FVec F S512x512 .f32) (main_arg12 : FVec F S512x512 .f32) (main_arg13 : FVec F S512x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x512 : Shape := ⟨2, ![16384, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S1x2048 : Shape := ⟨2, ![1, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 24
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S2048x512, .f32⟩
  | .hbm, ⟨15, _⟩ => ⟨S2048x512, .f32⟩
  | .hbm, ⟨16, _⟩ => ⟨S2048, .f32⟩
  | .hbm, ⟨17, _⟩ => ⟨S1x2048, .f32⟩
  | .hbm, ⟨18, _⟩ => ⟨S512x2048, .f32⟩
  | .hbm, ⟨19, _⟩ => ⟨S512x2048, .f32⟩
  | .hbm, ⟨20, _⟩ => ⟨S1024x2048, .f32⟩
  | .hbm, ⟨21, _⟩ => ⟨S1024x2048, .bf16⟩
  | .hbm, ⟨22, _⟩ => ⟨S16384x512, .f32⟩
  | .hbm, ⟨23, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x2048, .bf16⟩
  | .local _ .vmem, ⟨5, _⟩ => ⟨S1x2048, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S512x512_S512x512_S512x512_S512x512_S2048x512_d0 : Shape.Concatenates [S512x512, S512x512, S512x512, S512x512] S2048x512 0
  concatenates_S512_S512_S512_S512_S2048_d0 : Shape.Concatenates [S512, S512, S512, S512] S2048 0
  shapeCasts_S2048_S1x2048 : S2048.ShapeCasts S1x2048
  transposes_S2048x512_S512x2048_1_0 : S2048x512.Transposes [1, 0] S512x2048
  concatenates_S512x2048_S512x2048_S1024x2048_d0 : Shape.Concatenates [S512x2048, S512x2048] S1024x2048 0
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  concatenates_S512x512_S512x512_S512x1024_d1 : Shape.Concatenates [S512x512, S512x512] S512x1024 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S16384x512.size a
  hwx0_4 : ∀ i : grid0.Coords, EltTy.bits .f32 = 32 ∨ (Rect.block (s := S16384x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S1x512x512 : Shape := ⟨3, ![1, 512, 512]⟩
abbrev S4x512x512 : Shape := ⟨3, ![4, 512, 512]⟩
abbrev S1x512 : Shape := ⟨2, ![1, 512]⟩
abbrev S4x512 : Shape := ⟨2, ![4, 512]⟩
abbrev S4x512x16384 : Shape := ⟨3, ![4, 512, 16384]⟩
abbrev S4x16384x512 : Shape := ⟨3, ![4, 16384, 512]⟩
abbrev S4x1x512 : Shape := ⟨3, ![4, 1, 512]⟩
abbrev S1x16384x512 : Shape := ⟨3, ![1, 16384, 512]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S1x512x512, .f32⟩
  | .hbm, ⟨15, _⟩ => ⟨S1x512x512, .f32⟩
  | .hbm, ⟨16, _⟩ => ⟨S1x512x512, .f32⟩
  | .hbm, ⟨17, _⟩ => ⟨S1x512x512, .f32⟩
  | .hbm, ⟨18, _⟩ => ⟨S4x512x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S4x512, .f32⟩
  | .hbm, ⟨24, _⟩ => ⟨S1x512x512, .f32⟩
  | .hbm, ⟨25, _⟩ => ⟨S1x512x512, .f32⟩
  | .hbm, ⟨26, _⟩ => ⟨S1x512x512, .f32⟩
  | .hbm, ⟨27, _⟩ => ⟨S1x512x512, .f32⟩
  | .hbm, ⟨28, _⟩ => ⟨S4x512x512, .f32⟩
  | .hbm, ⟨29, _⟩ => ⟨S4x512x16384, .f32⟩
  | .hbm, ⟨30, _⟩ => ⟨S4x16384x512, .f32⟩
  | .hbm, ⟨31, _⟩ => ⟨S4x1x512, .f32⟩
  | .hbm, ⟨32, _⟩ => ⟨S4x16384x512, .f32⟩
  | .hbm, ⟨33, _⟩ => ⟨S4x16384x512, .f32⟩
  | .hbm, ⟨34, _⟩ => ⟨S4x512x16384, .f32⟩
  | .hbm, ⟨35, _⟩ => ⟨S4x16384x512, .f32⟩
  | .hbm, ⟨36, _⟩ => ⟨S4x16384x512, .f32⟩
  | .hbm, ⟨37, _⟩ => ⟨S1x16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S1x16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S_, .f32⟩
  | .hbm, ⟨55, _⟩ => ⟨S16384x512, .f32⟩
  | .hbm, ⟨56, _⟩ => ⟨S16384x512, .f32⟩
  | .hbm, ⟨57, _⟩ => ⟨S1x16384x512, .f32⟩
  | .hbm, ⟨58, _⟩ => ⟨S16384x512, .f32⟩
  | .hbm, ⟨59, _⟩ => ⟨S16384x512, .f32⟩
  | .hbm, ⟨60, _⟩ => ⟨S1x16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S16384x512, .f32⟩
  | .hbm, ⟨67, _⟩ => ⟨S_, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S16384x512, .f32⟩
  | .hbm, ⟨74, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  bcast_S512x512_S1x512x512_1_2 : S512x512.BroadcastsInDim S1x512x512 (![1, 2] : Fin 2 → Fin S1x512x512.rank)
  concatenates_S1x512x512_S1x512x512_S1x512x512_S1x512x512_S4x512x512_d0 : Shape.Concatenates [S1x512x512, S1x512x512, S1x512x512, S1x512x512] S4x512x512 0
  bcast_S512_S1x512_1 : S512.BroadcastsInDim S1x512 (![1] : Fin 1 → Fin S1x512.rank)
  concatenates_S1x512_S1x512_S1x512_S1x512_S4x512_d0 : Shape.Concatenates [S1x512, S1x512, S1x512, S1x512] S4x512 0
  transposes_S4x512x16384_S4x16384x512_0_2_1 : S4x512x16384.Transposes [0, 2, 1] S4x16384x512
  bcast_S4x512_S4x1x512_0_2 : S4x512.BroadcastsInDim S4x1x512 (![0, 2] : Fin 2 → Fin S4x1x512.rank)
  bcast_S4x1x512_S4x16384x512_0_1_2 : S4x1x512.BroadcastsInDim S4x16384x512 (![0, 1, 2] : Fin 3 → Fin S4x16384x512.rank)
  slices_S4x16384x512_S1x16384x512_0_0_0 : S4x16384x512.Slices ![0, 0, 0] S1x16384x512
  shapeCasts_S1x16384x512_S16384x512 : S1x16384x512.ShapeCasts S16384x512
  bcast_S_S16384x512 : S_.BroadcastsInDim S16384x512 (![] : Fin 0 → Fin S16384x512.rank)
  slices_S4x16384x512_S1x16384x512_1_0_0 : S4x16384x512.Slices ![1, 0, 0] S1x16384x512
  slices_S4x16384x512_S1x16384x512_2_0_0 : S4x16384x512.Slices ![2, 0, 0] S1x16384x512
  slices_S4x16384x512_S1x16384x512_3_0_0 : S4x16384x512.Slices ![3, 0, 0] S1x16384x512
  dot_S4x512x512_S16384x512_S4x512x16384_2_1_01_0_n_n_wf : DotDims.WF S4x512x512 S16384x512 S4x512x16384 [2] [1] [0, 1] [0] [] []

variable [Facts₀]

def dot_S4x512x512_S16384x512_S4x512x16384_2_1_01_0_n_n : DotDims S4x512x512 S16384x512 S4x512x16384 where
  lhsContracting := [2]
  rhsContracting := [1]
  lhsNonContracting := [0, 1]
  rhsNonContracting := [0]
  lhsBatch := []
  rhsBatch := []
  wf := dot_S4x512x512_S16384x512_S4x512x16384_2_1_01_0_n_n_wf

class Facts : Prop extends Facts₀ where

variable [Facts]
-- ==== Proof.FrameBits.lean ====
/-
  The frame of `Kernel`: @main is eight host operations that build the fused weight matrix and the bias row,
  then one pipelined region over 32 grid points. The body at a point loads its four input blocks whole, computes, and
  stores its two output blocks whole, so what each output buffer holds after the body is a function of the four input
  blocks alone; every input buffer is left as found. Hence every weakly fair execution terminates without a fault, every
  argument array ends as launched (no host operation writes an argument; the region writes only the two result arrays),
  and each result array ends at the blocks the body left, point by point.
-/
import proofs.«155815_j5557687681205_2_alg».proof.Proof.Gen.Kernel.Launch
import proofs.«155815_j5557687681205_2_alg».proof.Proof.Gen.Kernel.Skeleton
import proofs.«155815_j5557687681205_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the eight host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the eight host operations writes is found by the region as launched: each operation writes its own
    result buffer (`main_v0` … `main_v7`) only. -/
theorem V_of_not_result (c : Dev nD) (b : Ref sig .tc)
    (h0 : b ≠ main_v0) (h1 : b ≠ main_v1) (h2 : b ≠ main_v2) (h3 : b ≠ main_v3) (h4 : b ≠ main_v4) (h5 : b ≠ main_v5)
    (h6 : b ≠ main_v6) (h7 : b ≠ main_v7) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its block
    index has not moved), for any proof data whose array is the region-entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, its block
    index has not moved), for any proof data whose array is the region-entry contents and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, its block
    index has not moved), for any proof data whose array is the region-entry contents and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, its block
    index has not moved), for any proof data whose array is the region-entry contents and whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rBlk : Rect S512x512 := Rect.unit (s := S512x512) ![0, 0] S512x512.size inb_S512x512_S512x512_0_0
abbrev rWt : Rect S1024x2048 := Rect.unit (s := S1024x2048) ![0, 0] S1024x2048.size inb_S1024x2048_S1024x2048_0_0
abbrev rBias : Rect S1x2048 := Rect.unit (s := S1x2048) ![0, 0] S1x2048.size inb_S1x2048_S1x2048_0_0

/-! ## What the body leaves in each output window's buffer -/

/-- The hidden-state block after the body, from the four input blocks: one store of the whole block. -/
def outH (x0 : Vec F S512x512 .f32) (x1 : Vec F S512x512 .f32) (x2 : Vec F S1024x2048 .bf16) (x3 : Vec F S1x2048 .f32) : Vec F S512x512 .f32 :=
  View.canon [⟨rBlk, k0_pay3 (View.ld x0 rBlk) (View.ld x1 rBlk) (View.ld x2 rWt) (View.ld x3 rBias)⟩]

/-- The cell-state block after the body, from the four input blocks: one store of the whole block. -/
def outC (x0 : Vec F S512x512 .f32) (x1 : Vec F S512x512 .f32) (x2 : Vec F S1024x2048 .bf16) (x3 : Vec F S1x2048 .f32) : Vec F S512x512 .f32 :=
  View.canon [⟨rBlk, k0_pay2 (View.ld x0 rBlk) (View.ld x1 rBlk) (View.ld x2 rWt) (View.ld x3 rBias)⟩]

/-- A store of the whole block covers the block. -/
theorem coverBlk (p0 : Vec F S512x512 .f32) (y : S512x512.Idx) :
    ∃ pc ∈ ([⟨rBlk, p0⟩] : List (View.Piece (Elt F) S512x512 .f32)), y ∈ pc.1.set :=
  View.cover_of_tiled [⟨rBlk, p0⟩] S512x512.size (by rfl) y

/-! ## The body's triple -/

set_option maxHeartbeats 1000000 in
/-- The kernel body on whole staging buffers, the inputs' at contents `x0 … x3` and the outputs' at anything, runs to
    the continuation holding the inputs' as they were and the outputs' at `outH` and `outC` of the inputs'. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S1024x2048 .bf16) (harg3 : arg3.IsWhole) (arg4 : Memref sig .tc .vmem S1x2048 .f32) (harg4 : arg4.IsWhole)
    (arg5 : Memref sig .tc .vmem S512x512 .f32) (harg5 : arg5.IsWhole) (arg6 : Memref sig .tc .vmem S512x512 .f32) (harg6 : arg6.IsWhole)
    (x0 : Vec F S512x512 .f32) (x1 : Vec F S512x512 .f32) (x2 : Vec F S1024x2048 .bf16) (x3 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outH x0 x1 x2 x3)
            ∗ owns (c : Thread nD τ) arg6 fullShare (outC x0 x1 x2 x3)) -∗ K ⟨⟩))
      ⊢ wp frame (wpE (defs₀ (F := F)) Variants.none c none) E
          (cc0__lstm_cell_kernel i arg1 harg1 arg2 harg2 arg3 harg3 arg4 harg4 arg5 harg5 arg6 harg6) K := by
  simp only [cc0__lstm_cell_kernel_eq_skeleton]; unfold cc0__lstm_cell_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverBlk _)
  iexists _; isplitr
  swap; · iexact H5
  ipureintro
  exact View.read_writes_eq_canon _ _ _ (coverBlk _)

/-! ## The pipeline's proof data -/

/-- The proof data of the pipeline on core `c`: the arrays as the region finds them; after the body at point `t` each
    input's buffer at its block and each output's at `outH` / `outC` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outH (iblk m c 0 t) (iblk m c 1 t) (iblk m c 2 t) (iblk m c 3 t)
    | ⟨5, _⟩ => outC (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outH (iblk m c 0 t) (iblk m c 1 t) (iblk m c 2 t) (iblk m c 3 t) := by dsimp only [dats]
theorem after_5 (c : Dev nD) (t : Fin cfg0.N) :
    (dats m 0 c).after 5 t = outC (iblk m c 0 t) (iblk m c 1 t) (iblk m c 2 t) (iblk m c 3 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    proof data's write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument array that no window stages ends as launched. -/
theorem kept_rest (r : PUnit × MemSt nD τ sig (Elt F)) (h : Pipeline.FramePost cfgs (dats m) 0 (V m) r) (c : Dev nD) (b : Ref sig .tc)
    (hs : b.isScoped = false) (ha : ∀ w, (spec0 w).arr.view.ref ≠ b)
    (h0 : b ≠ main_v0) (h1 : b ≠ main_v1) (h2 : b ≠ main_v2) (h3 : b ≠ main_v3) (h4 : b ≠ main_v4) (h5 : b ≠ main_v5)
    (h6 : b ≠ main_v6) (h7 : b ≠ main_v7) :
    r.2.mem ((c.tc : Thread nD τ).loc b) = m ((c.tc : Thread nD τ).loc b) :=
  ((h c).2 b (Pipeline.mem_restRefs_of b hs ha)).trans (V_of_not_result m c b h0 h1 h2 h3 h4 h5 h6 h7)

/-- After the run every argument array is as launched: `z` and `x` are staged and never written back; the weights
    and biases are touched by no window and written by no host operation. -/
theorem kept_all (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
    ⟨((h c).1 1).trans (((dats m 0 c).arrAt_in 1 rfl _).trans ((A_eq m c 1).trans
        (V_of_not_result m c main_arg0 (by decide) (by decide) (by decide) (by decide) (by decide) (by decide) (by decide) (by decide)))),
     ((h c).1 0).trans (((dats m 0 c).arrAt_in 0 rfl _).trans ((A_eq m c 0).trans
        (V_of_not_result m c main_arg1 (by decide) (by decide) (by decide) (by decide) (by decide) (by decide) (by decide) (by decide)))),
     kept_rest m r h c main_arg2 (by decide) (by decide) (by decide) (by decide) (by decide) (by decide) (by decide) (by decide) (by decide) (by decide),
     kept_rest m r h c main_arg3 (by decide) (by decide) (by decide) (by decide) (by decide) (by decide) (by decide) (by decide) (by decide) (by decide),
     kept_rest m r h c main_arg4 (by decide) (by decide) (by decide) (by decide) (by decide) (by decide) (by decide) (by decide) (by decide) (by decide),
     kept_rest m r h c main_arg5 (by decide) (by decide) (by decide) (by decide) (by decide) (by decide) (by decide) (by decide) (by decide) (by decide),
     kept_rest m r h c main_arg6 (by decide) (by decide) (by decide) (by decide) (by decide) (by decide) (by decide) (by decide) (by decide) (by decide),
     kept_rest m r h c main_arg7 (by decide) (by decide) (by decide) (by decide) (by decide) (by decide) (by decide) (by decide) (by decide) (by decide),
     kept_rest m r h c main_arg8 (by decide) (by decide) (by decide) (by decide) (by decide) (by decide) (by decide) (by decide) (by decide) (by decide),
     kept_rest m r h c main_arg9 (by decide) (by decide) (by decide) (by decide) (by decide) (by decide) (by decide) (by decide) (by decide) (by decide),
     kept_rest m r h c main_arg10 (by decide) (by decide) (by decide) (by decide) (by decide) (by decide) (by decide) (by decide) (by decide) (by decide),
     kept_rest m r h c main_arg11 (by decide) (by decide) (by decide) (by decide) (by decide) (by decide) (by decide) (by decide) (by decide) (by decide),
     kept_rest m r h c main_arg12 (by decide) (by decide) (by decide) (by decide) (by decide) (by decide) (by decide) (by decide) (by decide) (by decide),
     kept_rest m r h c main_arg13 (by decide) (by decide) (by decide) (by decide) (by decide) (by decide) (by decide) (by decide) (by decide) (by decide)⟩

/-- The frame: every weakly fair execution terminates without a fault, and every argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_all m r h c) (run_main m ρ)

end Cert.Kernel.Hand

end
-- ==== Proof.FrameIdeal.lean ====
/-
  The frame of `KernelIdeal`: @main is eight host operations that build the fused weight matrix and the bias row,
  then one pipelined region over 32 grid points. The body at a point loads its four input blocks whole, computes, and
  stores its two output blocks whole, so what each output buffer holds after the body is a function of the four input
  blocks alone; every input buffer is left as found. Hence every weakly fair execution terminates without a fault, every
  argument array ends as launched (no host operation writes an argument; the region writes only the two result arrays),
  and each result array ends at the blocks the body left, point by point.
-/
import proofs.«155815_j5557687681205_2_alg».proof.Proof.Gen.KernelIdeal.Launch
import proofs.«155815_j5557687681205_2_alg».proof.Proof.Gen.KernelIdeal.Skeleton
import proofs.«155815_j5557687681205_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the eight host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the eight host operations writes is found by the region as launched: each operation writes its own
    result buffer (`main_v0` … `main_v7`) only. -/
theorem V_of_not_result (c : Dev nD) (b : Ref sig .tc)
    (h0 : b ≠ main_v0) (h1 : b ≠ main_v1) (h2 : b ≠ main_v2) (h3 : b ≠ main_v3) (h4 : b ≠ main_v4) (h5 : b ≠ main_v5)
    (h6 : b ≠ main_v6) (h7 : b ≠ main_v7) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its block
    index has not moved), for any proof data whose array is the region-entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, its block
    index has not moved), for any proof data whose array is the region-entry contents and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, its block
    index has not moved), for any proof data whose array is the region-entry contents and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, its block
    index has not moved), for any proof data whose array is the region-entry contents and whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rBlk : Rect S512x512 := Rect.unit (s := S512x512) ![0, 0] S512x512.size inb_S512x512_S512x512_0_0
abbrev rWt : Rect S1024x2048 := Rect.unit (s := S1024x2048) ![0, 0] S1024x2048.size inb_S1024x2048_S1024x2048_0_0
abbrev rBias : Rect S1x2048 := Rect.unit (s := S1x2048) ![0, 0] S1x2048.size inb_S1x2048_S1x2048_0_0

/-! ## What the body leaves in each output window's buffer -/

/-- The hidden-state block after the body, from the four input blocks: one store of the whole block. -/
def outH (x0 : Vec F S512x512 .f32) (x1 : Vec F S512x512 .f32) (x2 : Vec F S1024x2048 .bf16) (x3 : Vec F S1x2048 .f32) : Vec F S512x512 .f32 :=
  View.canon [⟨rBlk, k0_pay3 (View.ld x0 rBlk) (View.ld x1 rBlk) (View.ld x2 rWt) (View.ld x3 rBias)⟩]

/-- The cell-state block after the body, from the four input blocks: one store of the whole block. -/
def outC (x0 : Vec F S512x512 .f32) (x1 : Vec F S512x512 .f32) (x2 : Vec F S1024x2048 .bf16) (x3 : Vec F S1x2048 .f32) : Vec F S512x512 .f32 :=
  View.canon [⟨rBlk, k0_pay2 (View.ld x0 rBlk) (View.ld x1 rBlk) (View.ld x2 rWt) (View.ld x3 rBias)⟩]

/-- A store of the whole block covers the block. -/
theorem coverBlk (p0 : Vec F S512x512 .f32) (y : S512x512.Idx) :
    ∃ pc ∈ ([⟨rBlk, p0⟩] : List (View.Piece (Elt F) S512x512 .f32)), y ∈ pc.1.set :=
  View.cover_of_tiled [⟨rBlk, p0⟩] S512x512.size (by rfl) y

/-! ## The body's triple -/

set_option maxHeartbeats 1000000 in
/-- The kernel body on whole staging buffers, the inputs' at contents `x0 … x3` and the outputs' at anything, runs to
    the continuation holding the inputs' as they were and the outputs' at `outH` and `outC` of the inputs'. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S1024x2048 .bf16) (harg3 : arg3.IsWhole) (arg4 : Memref sig .tc .vmem S1x2048 .f32) (harg4 : arg4.IsWhole)
    (arg5 : Memref sig .tc .vmem S512x512 .f32) (harg5 : arg5.IsWhole) (arg6 : Memref sig .tc .vmem S512x512 .f32) (harg6 : arg6.IsWhole)
    (x0 : Vec F S512x512 .f32) (x1 : Vec F S512x512 .f32) (x2 : Vec F S1024x2048 .bf16) (x3 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outH x0 x1 x2 x3)
            ∗ owns (c : Thread nD τ) arg6 fullShare (outC x0 x1 x2 x3)) -∗ K ⟨⟩))
      ⊢ wp frame (wpE (defs₀ (F := F)) Variants.none c none) E
          (cc0__lstm_cell_kernel i arg1 harg1 arg2 harg2 arg3 harg3 arg4 harg4 arg5 harg5 arg6 harg6) K := by
  simp only [cc0__lstm_cell_kernel_eq_skeleton]; unfold cc0__lstm_cell_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverBlk _)
  iexists _; isplitr
  swap; · iexact H5
  ipureintro
  exact View.read_writes_eq_canon _ _ _ (coverBlk _)

/-! ## The pipeline's proof data -/

/-- The proof data of the pipeline on core `c`: the arrays as the region finds them; after the body at point `t` each
    input's buffer at its block and each output's at `outH` / `outC` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outH (iblk m c 0 t) (iblk m c 1 t) (iblk m c 2 t) (iblk m c 3 t)
    | ⟨5, _⟩ => outC (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outH (iblk m c 0 t) (iblk m c 1 t) (iblk m c 2 t) (iblk m c 3 t) := by dsimp only [dats]
theorem after_5 (c : Dev nD) (t : Fin cfg0.N) :
    (dats m 0 c).after 5 t = outC (iblk m c 0 t) (iblk m c 1 t) (iblk m c 2 t) (iblk m c 3 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    proof data's write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument array that no window stages ends as launched. -/
theorem kept_rest (r : PUnit × MemSt nD τ sig (Elt F)) (h : Pipeline.FramePost cfgs (dats m) 0 (V m) r) (c : Dev nD) (b : Ref sig .tc)
    (hs : b.isScoped = false) (ha : ∀ w, (spec0 w).arr.view.ref ≠ b)
    (h0 : b ≠ main_v0) (h1 : b ≠ main_v1) (h2 : b ≠ main_v2) (h3 : b ≠ main_v3) (h4 : b ≠ main_v4) (h5 : b ≠ main_v5)
    (h6 : b ≠ main_v6) (h7 : b ≠ main_v7) :
    r.2.mem ((c.tc : Thread nD τ).loc b) = m ((c.tc : Thread nD τ).loc b) :=
  ((h c).2 b (Pipeline.mem_restRefs_of b hs ha)).trans (V_of_not_result m c b h0 h1 h2 h3 h4 h5 h6 h7)

/-- After the run every argument array is as launched: `z` and `x` are staged and never written back; the weights
    and biases are touched by no window and written by no host operation. -/
theorem kept_all (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
    ⟨((h c).1 1).trans (((dats m 0 c).arrAt_in 1 rfl _).trans ((A_eq m c 1).trans
        (V_of_not_result m c main_arg0 (by decide) (by decide) (by decide) (by decide) (by decide) (by decide) (by decide) (by decide)))),
     ((h c).1 0).trans (((dats m 0 c).arrAt_in 0 rfl _).trans ((A_eq m c 0).trans
        (V_of_not_result m c main_arg1 (by decide) (by decide) (by decide) (by decide) (by decide) (by decide) (by decide) (by decide)))),
     kept_rest m r h c main_arg2 (by decide) (by decide) (by decide) (by decide) (by decide) (by decide) (by decide) (by decide) (by decide) (by decide),
     kept_rest m r h c main_arg3 (by decide) (by decide) (by decide) (by decide) (by decide) (by decide) (by decide) (by decide) (by decide) (by decide),
     kept_rest m r h c main_arg4 (by decide) (by decide) (by decide) (by decide) (by decide) (by decide) (by decide) (by decide) (by decide) (by decide),
     kept_rest m r h c main_arg5 (by decide) (by decide) (by decide) (by decide) (by decide) (by decide) (by decide) (by decide) (by decide) (by decide),
     kept_rest m r h c main_arg6 (by decide) (by decide) (by decide) (by decide) (by decide) (by decide) (by decide) (by decide) (by decide) (by decide),
     kept_rest m r h c main_arg7 (by decide) (by decide) (by decide) (by decide) (by decide) (by decide) (by decide) (by decide) (by decide) (by decide),
     kept_rest m r h c main_arg8 (by decide) (by decide) (by decide) (by decide) (by decide) (by decide) (by decide) (by decide) (by decide) (by decide),
     kept_rest m r h c main_arg9 (by decide) (by decide) (by decide) (by decide) (by decide) (by decide) (by decide) (by decide) (by decide) (by decide),
     kept_rest m r h c main_arg10 (by decide) (by decide) (by decide) (by decide) (by decide) (by decide) (by decide) (by decide) (by decide) (by decide),
     kept_rest m r h c main_arg11 (by decide) (by decide) (by decide) (by decide) (by decide) (by decide) (by decide) (by decide) (by decide) (by decide),
     kept_rest m r h c main_arg12 (by decide) (by decide) (by decide) (by decide) (by decide) (by decide) (by decide) (by decide) (by decide) (by decide),
     kept_rest m r h c main_arg13 (by decide) (by decide) (by decide) (by decide) (by decide) (by decide) (by decide) (by decide) (by decide) (by decide)⟩

/-- The frame: every weakly fair execution terminates without a fault, and every argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_all m r h c) (run_main m ρ)

end Cert.KernelIdeal.Hand

end
-- ==== Proof.LstmSpec.lean ====
/-
  The LSTM cell as one function of its argument arrays, over the extended reals.

  A batch row of the result depends on the same batch row of `x` and `z` only. For such a row (`xr`, `zr`) and a hidden
  unit `h`, gate `g` (input, forget, candidate, output) has the pre-activation
      pre g h = Σₖ xr[k]·W_g[h,k] + Σₖ zr[k]·U_g[h,k] + bias_g[h],
  and the cell computes
      c'[h] = σ(pre f) · zr[h] + σ(pre i) · tanh(pre c),      h'[h] = σ(pre o) · tanh(c'[h]),
  with σ x = 1 / (1 + e⁻ˣ). One program adds the bias last, to the sum of the two contractions (`preFused`); the other adds it
  to the input contraction first, with the factors of each product in the other order (`preSplit`). Addition and
  multiplication of extended reals are commutative and associative, so the two agree at every input, finite or not.
-/
import Idealize.ShloMosaic.PureOps.Ideal
import Idealize.ShloMosaic.Lib.ValueIdx

noncomputable section

namespace Cert.LstmSpec

open Idealize.ShloMosaic Idealize.ShloMosaic.ValueIdx

/-- A matrix and a vector of extended reals, indexed as the programs index them. -/
abbrev Mat (r c : Nat) := (⟨2, ![r, c]⟩ : Shape).Idx → EReal
abbrev Vct (n : Nat) := (⟨1, ![n]⟩ : Shape).Idx → EReal

/-- A matrix read by row and column; a vector read by position. -/
def rows {r c : Nat} (a : Mat r c) : Fin r → Fin c → EReal := fun i j => a (ix2 i j)
def elts {n : Nat} (a : Vct n) : Fin n → EReal := fun i => a (ix1 i)

/-- Four things in gate order: input, forget, candidate, output. -/
def gates {α : Type} (a0 a1 a2 a3 : α) : Fin 4 → α
  | ⟨0, _⟩ => a0
  | ⟨1, _⟩ => a1
  | ⟨2, _⟩ => a2
  | ⟨3, _⟩ => a3

/-- Hidden unit `h` of gate `g` among the 2048 fused columns: the gates' bands lie side by side. -/
def gcol (g : Fin 4) (h : Fin 512) : Fin 2048 := ⟨g.val * 512 + h.val, by have := g.isLt; have := h.isLt; omega⟩

section
variable (xr zr : Fin 512 → EReal) (Wg Ug : Fin 512 → Fin 512 → EReal) (bg : Fin 512 → EReal)

/-- One gate's pre-activation, the bias added to the sum of the two contractions. -/
def preFused (h : Fin 512) : EReal :=
  (∑ k : Fin 512, xr k * Wg h k + ∑ k : Fin 512, zr k * Ug h k) + bg h

/-- The same, the bias added to the input contraction before the hidden contraction, the weights as left factors. -/
def preSplit (h : Fin 512) : EReal :=
  ((∑ k : Fin 512, Wg h k * xr k) + bg h) + ∑ k : Fin 512, Ug h k * zr k

/-- The two spellings are one extended real: sums and products commute and associate. -/
theorem preSplit_eq_preFused (h : Fin 512) : preSplit xr zr Wg Ug bg h = preFused xr zr Wg Ug bg h := by
  unfold preSplit preFused
  have e1 : ∑ k : Fin 512, Wg h k * xr k = ∑ k : Fin 512, xr k * Wg h k := Finset.sum_congr rfl fun k _ => mul_comm _ _
  have e2 : ∑ k : Fin 512, Ug h k * zr k = ∑ k : Fin 512, zr k * Ug h k := Finset.sum_congr rfl fun k _ => mul_comm _ _
  rw [e1, e2, add_right_comm]
end

section
variable (xr zr : Fin 512 → EReal) (W U : Fin 4 → Fin 512 → Fin 512 → EReal) (bv : Fin 4 → Fin 512 → EReal)

/-- The next cell state of one batch row. -/
def cell (h : Fin 512) : EReal :=
  Ideal.logistic (preFused xr zr (W 1) (U 1) (bv 1) h) * zr h
    + Ideal.logistic (preFused xr zr (W 0) (U 0) (bv 0) h) * Ideal.tanh (preFused xr zr (W 2) (U 2) (bv 2) h)

/-- The next hidden state of one batch row. -/
def hidden (h : Fin 512) : EReal :=
  Ideal.logistic (preFused xr zr (W 3) (U 3) (bv 3) h) * Ideal.tanh (cell xr zr W U bv h)
end

section
variable (z x : Mat 16384 512) (Wi Wf Wc Wo : Mat 512 512) (bi bf bc bo : Vct 512) (Ui Uf Uc Uo : Mat 512 512)

/-- The next cell state as an array of the fourteen argument arrays. -/
def cellArr : Mat 16384 512 := fun i =>
  cell (rows x (i 0)) (rows z (i 0)) (gates (rows Wi) (rows Wf) (rows Wc) (rows Wo)) (gates (rows Ui) (rows Uf) (rows Uc) (rows Uo))
    (gates (elts bi) (elts bf) (elts bc) (elts bo)) (i 1)

/-- The next hidden state as an array of the fourteen argument arrays. -/
def hiddenArr : Mat 16384 512 := fun i =>
  hidden (rows x (i 0)) (rows z (i 0)) (gates (rows Wi) (rows Wf) (rows Wc) (rows Wo)) (gates (rows Ui) (rows Uf) (rows Uc) (rows Uo))
    (gates (elts bi) (elts bf) (elts bc) (elts bo)) (i 1)
end

/-- The float pattern of `1.0` denotes the extended real `1`. -/
theorem ofBits_one : Ideal.ofBits .f32 0x3F800000#32 = 1 := by
  simp [Ideal.ofBits, Ideal.ieee, -EReal.coe_mul]; norm_num

end Cert.LstmSpec

end
-- ==== Proof.KernelHost.lean ====
/-
  What the region finds in the two arrays the host operations build.

  Before the region the host stacks the four input-weight matrices (2048 × 512), likewise the four hidden-weight matrices,
  transposes each stack (512 × 2048), puts the first on top of the second (1024 × 2048) and changes its float format (the
  identity on extended reals); and it lays the four bias vectors end to end as one row of 2048. So in the fused matrix,
  row `k < 512` and column `g·512 + h` hold `W_g[h, k]`; row `512 + k` and that column hold `U_g[h, k]`; and the bias
  row holds `bias_g[h]` at that column.
-/
import proofs.«155815_j5557687681205_2_alg».proof.Proof.FrameIdeal
import proofs.«155815_j5557687681205_2_alg».proof.Proof.LstmSpec
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen
open Idealize.ShloMosaic Idealize.ShloMosaic.TcCoe Idealize.ShloMosaic.ValueIdx Idealize.SL.Sem Idealize.ShloMosaic.StableHlo
open Cert.LstmSpec (gcol gates)

/-! ## The operations' terms, over any four matrices and four vectors -/

section terms

/-- Four 512 × 512 matrices stacked, read at row `g·512 + h`: matrix `g` at row `h`. -/
theorem stack4_apply (a0 a1 a2 a3 : FVec Ideal S512x512 .f32) (g : Fin 4) (h k : Fin 512) :
    concatenate S2048x512 0 [⟨S512x512, a0⟩, ⟨S512x512, a1⟩, ⟨S512x512, a2⟩, ⟨S512x512, a3⟩]
        Facts₀.concatenates_S512x512_S512x512_S512x512_S512x512_S2048x512_d0 (ix2 (gcol g h) k)
      = gates a0 a1 a2 a3 g (ix2 h k) := by
  match g with
  | ⟨0, _⟩ =>
    exact concatenate_apply_piece (t := S2048x512) (0 : Fin 2) _ _ (ix2 (gcol 0 h) k) 0 (by simp) S512x512 a0 rfl rfl 0 rfl (ix2 h k)
      (fun b hb => by match b with | ⟨0, _⟩ => exact absurd rfl hb | ⟨1, _⟩ => rfl) (by show 0 + h.val = 0 * 512 + h.val; omega)
  | ⟨1, _⟩ =>
    exact concatenate_apply_piece (t := S2048x512) (0 : Fin 2) _ _ (ix2 (gcol 1 h) k) 1 (by simp) S512x512 a1 rfl rfl 512 rfl (ix2 h k)
      (fun b hb => by match b with | ⟨0, _⟩ => exact absurd rfl hb | ⟨1, _⟩ => rfl) (by show 512 + h.val = 1 * 512 + h.val; omega)
  | ⟨2, _⟩ =>
    exact concatenate_apply_piece (t := S2048x512) (0 : Fin 2) _ _ (ix2 (gcol 2 h) k) 2 (by simp) S512x512 a2 rfl rfl 1024 rfl (ix2 h k)
      (fun b hb => by match b with | ⟨0, _⟩ => exact absurd rfl hb | ⟨1, _⟩ => rfl) (by show 1024 + h.val = 2 * 512 + h.val; omega)
  | ⟨3, _⟩ =>
    exact concatenate_apply_piece (t := S2048x512) (0 : Fin 2) _ _ (ix2 (gcol 3 h) k) 3 (by simp) S512x512 a3 rfl rfl 1536 rfl (ix2 h k)
      (fun b hb => by match b with | ⟨0, _⟩ => exact absurd rfl hb | ⟨1, _⟩ => rfl) (by show 1536 + h.val = 3 * 512 + h.val; omega)

/-- Four vectors of 512 laid end to end, read at position `g·512 + h`: vector `g` at `h`. -/
theorem row4_apply (b0 b1 b2 b3 : FVec Ideal S512 .f32) (g : Fin 4) (h : Fin 512) :
    concatenate S2048 0 [⟨S512, b0⟩, ⟨S512, b1⟩, ⟨S512, b2⟩, ⟨S512, b3⟩]
        Facts₀.concatenates_S512_S512_S512_S512_S2048_d0 (ix1 (gcol g h))
      = gates b0 b1 b2 b3 g (ix1 h) := by
  match g with
  | ⟨0, _⟩ =>
    exact concatenate_apply_piece (t := S2048) (0 : Fin 1) _ _ (ix1 (gcol 0 h)) 0 (by simp) S512 b0 rfl rfl 0 rfl (ix1 h)
      (fun b hb => by match b with | ⟨0, _⟩ => exact absurd rfl hb) (by show 0 + h.val = 0 * 512 + h.val; omega)
  | ⟨1, _⟩ =>
    exact concatenate_apply_piece (t := S2048) (0 : Fin 1) _ _ (ix1 (gcol 1 h)) 1 (by simp) S512 b1 rfl rfl 512 rfl (ix1 h)
      (fun b hb => by match b with | ⟨0, _⟩ => exact absurd rfl hb) (by show 512 + h.val = 1 * 512 + h.val; omega)
  | ⟨2, _⟩ =>
    exact concatenate_apply_piece (t := S2048) (0 : Fin 1) _ _ (ix1 (gcol 2 h)) 2 (by simp) S512 b2 rfl rfl 1024 rfl (ix1 h)
      (fun b hb => by match b with | ⟨0, _⟩ => exact absurd rfl hb) (by show 1024 + h.val = 2 * 512 + h.val; omega)
  | ⟨3, _⟩ =>
    exact concatenate_apply_piece (t := S2048) (0 : Fin 1) _ _ (ix1 (gcol 3 h)) 3 (by simp) S512 b3 rfl rfl 1536 rfl (ix1 h)
      (fun b hb => by match b with | ⟨0, _⟩ => exact absurd rfl hb) (by show 1536 + h.val = 3 * 512 + h.val; omega)

variable (w0 w1 w2 w3 u0 u1 u2 u3 : FVec Ideal S512x512 .f32) (b0 b1 b2 b3 : FVec Ideal S512 .f32)

/-- The fused weight matrix: the transposed stack of input weights over the transposed stack of hidden weights. -/
def wallTerm : FVec Ideal S1024x2048 .bf16 :=
  truncf .bf16 (concatenate S1024x2048 0
    [⟨S512x2048, transpose S512x2048 [1, 0] (concatenate S2048x512 0 [⟨S512x512, w0⟩, ⟨S512x512, w1⟩, ⟨S512x512, w2⟩, ⟨S512x512, w3⟩]
        Facts₀.concatenates_S512x512_S512x512_S512x512_S512x512_S2048x512_d0) Facts₀.transposes_S2048x512_S512x2048_1_0⟩,
     ⟨S512x2048, transpose S512x2048 [1, 0] (concatenate S2048x512 0 [⟨S512x512, u0⟩, ⟨S512x512, u1⟩, ⟨S512x512, u2⟩, ⟨S512x512, u3⟩]
        Facts₀.concatenates_S512x512_S512x512_S512x512_S512x512_S2048x512_d0) Facts₀.transposes_S2048x512_S512x2048_1_0⟩]
    Facts₀.concatenates_S512x2048_S512x2048_S1024x2048_d0) Facts₀.bitsLt_bf16_f32

/-- The bias row: the four bias vectors end to end, as one row. -/
def biasTerm : FVec Ideal S1x2048 .f32 :=
  shapeCast S1x2048 (concatenate S2048 0 [⟨S512, b0⟩, ⟨S512, b1⟩, ⟨S512, b2⟩, ⟨S512, b3⟩]
    Facts₀.concatenates_S512_S512_S512_S512_S2048_d0) Facts₀.shapeCasts_S2048_S1x2048

/-- The upper half of the fused matrix holds the input weights, transposed. -/
theorem wall_upper (g : Fin 4) (h k : Fin 512) :
    wallTerm w0 w1 w2 w3 u0 u1 u2 u3 (ix2 ⟨k.val, by omega⟩ (gcol g h)) = gates w0 w1 w2 w3 g (ix2 h k) := by
  unfold wallTerm
  refine (concatenate_pair_apply_left (t := S1024x2048) (0 : Fin 2) _ _ Facts₀.concatenates_S512x2048_S512x2048_S1024x2048_d0
    (ix2 ⟨k.val, by omega⟩ (gcol g h)) rfl (ix2 k (gcol g h)) (fun b => by match b with | ⟨0, _⟩ => rfl | ⟨1, _⟩ => rfl)).trans ?_
  refine (transpose_apply [1, 0] _ Facts₀.transposes_S2048x512_S512x2048_1_0 (ix2 k (gcol g h)) (ix2 (gcol g h) k)
    (fun b => by match b with | ⟨0, _⟩ => rfl | ⟨1, _⟩ => rfl)).trans ?_
  exact stack4_apply w0 w1 w2 w3 g h k

/-- The lower half holds the hidden weights, transposed. -/
theorem wall_lower (g : Fin 4) (h k : Fin 512) :
    wallTerm w0 w1 w2 w3 u0 u1 u2 u3 (ix2 ⟨512 + k.val, by omega⟩ (gcol g h)) = gates u0 u1 u2 u3 g (ix2 h k) := by
  unfold wallTerm
  refine (concatenate_pair_apply_right (t := S1024x2048) (0 : Fin 2) _ _ Facts₀.concatenates_S512x2048_S512x2048_S1024x2048_d0
    (ix2 ⟨512 + k.val, by omega⟩ (gcol g h)) rfl rfl (ix2 k (gcol g h))
    (fun b hb => by match b with | ⟨0, _⟩ => exact absurd rfl hb | ⟨1, _⟩ => rfl) (by show k.val + 512 = 512 + k.val; omega)).trans ?_
  refine (transpose_apply [1, 0] _ Facts₀.transposes_S2048x512_S512x2048_1_0 (ix2 k (gcol g h)) (ix2 (gcol g h) k)
    (fun b => by match b with | ⟨0, _⟩ => rfl | ⟨1, _⟩ => rfl)).trans ?_
  exact stack4_apply u0 u1 u2 u3 g h k

/-- The bias row at a gate's column. -/
theorem bias_at (g : Fin 4) (h : Fin 512) :
    biasTerm b0 b1 b2 b3 (ix2 0 (gcol g h)) = gates b0 b1 b2 b3 g (ix1 h) := by
  unfold biasTerm
  refine (shapeCast_apply _ Facts₀.shapeCasts_S2048_S1x2048 (ix2 0 (gcol g h)) (ix1 (gcol g h)) (by
    rw [Shape.rowMajor_val_two]; rfl)).trans ?_
  exact row4_apply b0 b1 b2 b3 g h

end terms

/-! ## The two arrays as the region finds them -/

variable (m : (ℓ : Loc nD τ sig) → Buf (Elt Ideal) ℓ)

/-- The fused weight array at the region's entry is the operations' term of the eight weight arguments. -/
theorem V_wall (c : Dev nD) : (Hand.V m c main_v7 : FVec Ideal S1024x2048 .bf16)
    = wallTerm (m ((c : Thread nD τ).loc main_arg2)) (m ((c : Thread nD τ).loc main_arg3)) (m ((c : Thread nD τ).loc main_arg4)) (m ((c : Thread nD τ).loc main_arg5))
        (m ((c : Thread nD τ).loc main_arg10)) (m ((c : Thread nD τ).loc main_arg11)) (m ((c : Thread nD τ).loc main_arg12)) (m ((c : Thread nD τ).loc main_arg13)) := by
  dsimp only [Hand.V, Gen.hostOps0]
  after_results
  rfl

/-- The bias array at the region's entry is the operations' term of the four bias arguments. -/
theorem V_bias (c : Dev nD) : (Hand.V m c main_v3 : FVec Ideal S1x2048 .f32)
    = biasTerm (m ((c : Thread nD τ).loc main_arg6)) (m ((c : Thread nD τ).loc main_arg7)) (m ((c : Thread nD τ).loc main_arg8)) (m ((c : Thread nD τ).loc main_arg9)) := by
  dsimp only [Hand.V, Gen.hostOps0]
  after_results
  rfl

end Cert.KernelIdeal.HostSide

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.KernelBody.lean ====
/-
  The kernel body's arithmetic at an entry of a block.

  At a grid point the body holds a 512-row block of `x` and of `z`, the fused weight matrix (1024 × 2048: the input
  weights' transposes over the hidden weights' transposes, the four gates side by side) and the bias row. It lays the two
  blocks side by side, multiplies by the fused matrix and adds the bias row to every row; so at row `p` and column `j`
      pre[p, j] = Σ_{k<512} x[p,k]·Wall[k,j] + Σ_{k<512} z[p,k]·Wall[512+k,j] + bias[j]
  (a change of float format is the identity here, and the product into a zero accumulator is the plain sum, split at
  the seam of the two blocks). The gates are the four 512-column bands of `pre`; the cell and hidden blocks follow
  entry by entry, and are the row-wise cell of `LstmSpec` once the fused matrix and the bias row are read gate by gate.
-/
import proofs.«155815_j5557687681205_2_alg».proof.Proof.Gen.KernelIdeal.Skeleton
import proofs.«155815_j5557687681205_2_alg».proof.Proof.LibPlainDot
import proofs.«155815_j5557687681205_2_alg».proof.Proof.LstmSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx

open Cert.LstmSpec (gcol)

/-- The two blocks laid side by side, read left of the seam. -/
theorem cat_left (a b : FVec Ideal S512x512 .bf16) (p k : Fin 512) :
    concatenate S512x1024 1 [⟨S512x512, a⟩, ⟨S512x512, b⟩] Facts₀.concatenates_S512x512_S512x512_S512x1024_d1
        (ix2 p ⟨k.val, by omega⟩) = a (ix2 p k) :=
  concatenate_pair_apply_left (t := S512x1024) (1 : Fin 2) a b Facts₀.concatenates_S512x512_S512x512_S512x1024_d1
    (ix2 p ⟨k.val, by omega⟩) rfl (ix2 p k) (fun bb => by
    match bb with
    | ⟨0, _⟩ => rfl
    | ⟨1, _⟩ => rfl)

/-- The two blocks laid side by side, read right of the seam. -/
theorem cat_right (a b : FVec Ideal S512x512 .bf16) (p k : Fin 512) :
    concatenate S512x1024 1 [⟨S512x512, a⟩, ⟨S512x512, b⟩] Facts₀.concatenates_S512x512_S512x512_S512x1024_d1
        (ix2 p ⟨512 + k.val, by omega⟩) = b (ix2 p k) :=
  concatenate_pair_apply_right (t := S512x1024) (1 : Fin 2) a b Facts₀.concatenates_S512x512_S512x512_S512x1024_d1
    (ix2 p ⟨512 + k.val, by omega⟩) rfl rfl (ix2 p k) (fun bb hb => by
    match bb with
    | ⟨0, _⟩ => rfl
    | ⟨1, _⟩ => exact absurd rfl hb) (by show k.val + 512 = 512 + k.val; omega)

/-- A sum over the 1024 fused columns is the sum over the first 512 plus the sum over the last 512. -/
theorem sum_seam (f : Fin 1024 → EReal) :
    ∑ k : Fin 1024, f k = ∑ k : Fin 512, f ⟨k.val, by omega⟩ + ∑ k : Fin 512, f ⟨512 + k.val, by omega⟩ :=
  Fin.sum_univ_add (a := 512) (b := 512) (M := EReal) f

/-- A 512-column band of a 512 × 2048 block, read at an entry. -/
theorem band_apply (y : FVec Ideal S512x2048 .f32) (o : Nat) (g : Fin 4) (ho : o = g.val * 512) (hs : S512x2048.Slices ![0, o] S512x512)
    (p q : Fin 512) : extractStridedSlice S512x512 ![0, o] y hs (ix2 p q) = y (ix2 p (gcol g q)) :=
  extractStridedSlice_apply ![0, o] y hs (ix2 p q) (ix2 p (gcol g q)) (fun a => by
    match a with
    | ⟨0, _⟩ => show p.val = 0 + p.val; omega
    | ⟨1, _⟩ => show g.val * 512 + q.val = o + q.val; omega)

variable (x0 x1 : Vec Ideal S512x512 .f32) (wt : Vec Ideal S1024x2048 .bf16) (bs : Vec Ideal S1x2048 .f32)

/-- The pre-activations at row `p`, fused column `j`. -/
theorem pre_apply (p : Fin 512) (j : Fin 2048) :
    k0_pay1 x0 x1 wt bs (ix2 p j)
      = (∑ k : Fin 512, x0 (ix2 p k) * wt (ix2 ⟨k.val, by omega⟩ j)
          + ∑ k : Fin 512, x1 (ix2 p k) * wt (ix2 ⟨512 + k.val, by omega⟩ j)) + bs (ix2 0 j) := by
  simp only [k0_pay1, addf_apply]
  refine congrArg₂ (· + ·) ?_ ?_
  · refine (PlainDot.matmul_zero_apply Facts₀.dot_S512x1024_S1024x2048_S512x2048_1_0_0_1_n_n_wf none _ _ p j).trans ?_
    rw [shapeCast_self, sum_seam]
    refine congrArg₂ (· + ·) (Finset.sum_congr rfl fun k _ => ?_) (Finset.sum_congr rfl fun k _ => ?_)
    · rw [cat_left]; rfl
    · rw [cat_right]; rfl
  · rw [shapeCast_self]
    exact broadcastTo_apply bs _ (ix2 p j) (ix2 0 j) (fun a => by
      match a with
      | ⟨0, _⟩ => show (0 : Nat) = if (1 : Nat) = 1 then 0 else _; rw [if_pos rfl]
      | ⟨1, _⟩ => show j.val = if (2048 : Nat) = 1 then 0 else j.val; rw [if_neg (by decide)])

/-- The cell block at an entry, from the four gate bands. -/
theorem cell_apply (p q : Fin 512) :
    k0_pay2 x0 x1 wt bs (ix2 p q)
      = Ideal.logistic (k0_pay1 x0 x1 wt bs (ix2 p (gcol 1 q))) * x1 (ix2 p q)
        + Ideal.logistic (k0_pay1 x0 x1 wt bs (ix2 p (gcol 0 q)))
          * Ideal.tanh (k0_pay1 x0 x1 wt bs (ix2 p (gcol 2 q))) := by
  rw [← band_apply (k0_pay1 x0 x1 wt bs) 512 1 rfl Facts₀.slices_S512x2048_o0_512_S512x512 p q,
    ← band_apply (k0_pay1 x0 x1 wt bs) 0 0 rfl Facts₀.slices_S512x2048_o0_0_S512x512 p q,
    ← band_apply (k0_pay1 x0 x1 wt bs) 1024 2 rfl Facts₀.slices_S512x2048_o0_1024_S512x512 p q]
  rfl

/-- The hidden block at an entry, from the output gate's band and the cell block. -/
theorem hidden_apply (p q : Fin 512) :
    k0_pay3 x0 x1 wt bs (ix2 p q)
      = Ideal.logistic (k0_pay1 x0 x1 wt bs (ix2 p (gcol 3 q))) * Ideal.tanh (k0_pay2 x0 x1 wt bs (ix2 p q)) := by
  rw [← band_apply (k0_pay1 x0 x1 wt bs) 1536 3 rfl Facts₀.slices_S512x2048_o0_1536_S512x512 p q]
  rfl

/-! ## The block's entries as the row-wise cell -/

section rowwise
variable (xr zr : Fin 512 → EReal) (W U : Fin 4 → Fin 512 → Fin 512 → EReal) (bv : Fin 4 → Fin 512 → EReal) (p : Fin 512)
  (hx : ∀ k, x0 (ix2 p k) = xr k) (hz : ∀ k, x1 (ix2 p k) = zr k)
  (hW : ∀ g h k, wt (ix2 ⟨k.val, by omega⟩ (gcol g h)) = W g h k)
  (hU : ∀ g h k, wt (ix2 ⟨512 + k.val, by omega⟩ (gcol g h)) = U g h k)
  (hb : ∀ g h, bs (ix2 0 (gcol g h)) = bv g h)
include hx hz hW hU hb

/-- When row `p` of the two blocks is `xr`, `zr` and the fused matrix and bias row hold the gates' weights and biases,
    the pre-activation at gate `g`'s column for unit `q` is that gate's `preFused`. -/
theorem pre_gate (g : Fin 4) (q : Fin 512) :
    k0_pay1 x0 x1 wt bs (ix2 p (gcol g q)) = Cert.LstmSpec.preFused xr zr (W g) (U g) (bv g) q := by
  rw [pre_apply]
  unfold Cert.LstmSpec.preFused
  simp only [hx, hz, hW, hU, hb]

/-- The cell block's entry is the row's next cell state. -/
theorem cell_block (q : Fin 512) : k0_pay2 x0 x1 wt bs (ix2 p q) = Cert.LstmSpec.cell xr zr W U bv q := by
  rw [cell_apply, pre_gate x0 x1 wt bs xr zr W U bv p hx hz hW hU hb 1 q, pre_gate x0 x1 wt bs xr zr W U bv p hx hz hW hU hb 0 q,
    pre_gate x0 x1 wt bs xr zr W U bv p hx hz hW hU hb 2 q, hz q]
  rfl

/-- The hidden block's entry is the row's next hidden state. -/
theorem hidden_block (q : Fin 512) : k0_pay3 x0 x1 wt bs (ix2 p q) = Cert.LstmSpec.hidden xr zr W U bv q := by
  rw [hidden_apply, pre_gate x0 x1 wt bs xr zr W U bv p hx hz hW hU hb 3 q, cell_block x0 x1 wt bs xr zr W U bv p hx hz hW hU hb q]
  rfl

end rowwise

end Cert.KernelIdeal.Body

end
-- ==== Proof.KernelValue.lean ====
/-
  The kernel's two result arrays after the run, as functions of the argument arrays.

  Grid point `t` stages rows `512·t … 512·t + 511` of `x` and of `z`, the whole fused weight matrix and the whole bias
  row, and writes back rows `512·t … 512·t + 511` of the two results. With the fused matrix and the bias row read gate by
  gate (the host operations before the region) and the body's arithmetic read entry by entry, the block point `t` writes
  back is the block of the row-wise LSTM cell of the argument arrays; the 32 blocks tile the 16384 rows, so each result
  array ends at that cell everywhere.
-/
import proofs.«155815_j5557687681205_2_alg».proof.Proof.FrameIdeal
import proofs.«155815_j5557687681205_2_alg».proof.Proof.KernelHost
import proofs.«155815_j5557687681205_2_alg».proof.Proof.KernelBody
import proofs.«155815_j5557687681205_2_alg».proof.Proof.LstmSpec
import Idealize.ShloMosaic.Lib.Pipeline.Value
import Idealize.ShloMosaic.Lib.ValueIdx

set_option maxRecDepth 16384

noncomputable section

namespace Cert.KernelIdeal.HandValue

open Cert.KernelIdeal Cert.KernelIdeal.Gen
open Idealize.ShloMosaic Idealize.ShloMosaic.TcCoe Idealize.ShloMosaic.ValueIdx Idealize.SL.Sem
open Idealize.ShloMosaic.Pipeline (Dat)
open Cert.LstmSpec

variable (m : (ℓ : Loc nD τ sig) → Buf (Elt Ideal) ℓ) (ρ : Dev nD → PrngReg)

theorem hz2 : (![0, 0] : Fin 2 → Nat) = fun _ => 0 := funext fun a => by fin_cases a <;> rfl

/-- The printed index maps over the grid: the row-blocked windows are at block row `t`, the whole-array windows at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of block `t` is row `512·t + p` of the array. -/
def brow (t : Fin cfg0.N) (p : Fin 512) : Fin 16384 := ⟨t.val * 512 + p.val, by have := t.isLt; have hN : cfg0.N = 32 := N_0; have := p.isLt; omega⟩

/-! ## The input blocks, read at an entry -/

/-- The `x` block at a point. -/
theorem x_block (c : Dev nD) (t : Fin cfg0.N) (p k : Fin 512) :
    Hand.iblk m c 0 t (ix2 p k) = m ((c : Thread nD τ).loc main_arg1) (ix2 (brow t p) k) := by
  obtain ⟨e0, e1, -⟩ := idx_facts t
  show Hand.V m c main_arg1 (((cfg0.win 0).blk t).view.emb (ix2 p k)) = _
  rw [Hand.V_of_not_result m c main_arg1 (by decide) (by decide) (by decide) (by decide) (by decide) (by decide) (by decide) (by decide)]
  refine congrArg _ (funext fun a => Fin.ext ?_)
  match a with
  | ⟨0, _⟩ => show win0_0.index t (0 : Fin 2) * 512 + 1 * p.val = t.val * 512 + p.val; rw [e0]; omega
  | ⟨1, _⟩ => show win0_0.index t (1 : Fin 2) * 512 + 1 * k.val = k.val; rw [e1]; omega

/-- The `z` block at a point. -/
theorem z_block (c : Dev nD) (t : Fin cfg0.N) (p k : Fin 512) :
    Hand.iblk m c 1 t (ix2 p k) = m ((c : Thread nD τ).loc main_arg0) (ix2 (brow t p) k) := by
  obtain ⟨-, -, e0, e1, -⟩ := idx_facts t
  show Hand.V m c main_arg0 (((cfg0.win 1).blk t).view.emb (ix2 p k)) = _
  rw [Hand.V_of_not_result m c main_arg0 (by decide) (by decide) (by decide) (by decide) (by decide) (by decide) (by decide) (by decide)]
  refine congrArg _ (funext fun a => Fin.ext ?_)
  match a with
  | ⟨0, _⟩ => show win0_1.index t (0 : Fin 2) * 512 + 1 * p.val = t.val * 512 + p.val; rw [e0]; omega
  | ⟨1, _⟩ => show win0_1.index t (1 : Fin 2) * 512 + 1 * k.val = k.val; rw [e1]; omega

/-- The fused weight block at a point is the whole fused matrix. -/
theorem w_block (c : Dev nD) (t : Fin cfg0.N) (k : Fin 1024) (j : Fin 2048) :
    Hand.iblk m c 2 t (ix2 k j) = Hand.V m c main_v7 (ix2 k j) := by
  obtain ⟨-, -, -, -, e0, e1, -⟩ := idx_facts t
  show Hand.V m c main_v7 (((cfg0.win 2).blk t).view.emb (ix2 k j)) = _
  refine congrArg _ (funext fun a => Fin.ext ?_)
  match a with
  | ⟨0, _⟩ => show win0_2.index t (0 : Fin 2) * 1024 + 1 * k.val = k.val; rw [e0]; omega
  | ⟨1, _⟩ => show win0_2.index t (1 : Fin 2) * 2048 + 1 * j.val = j.val; rw [e1]; omega

/-- The bias block at a point is the whole bias row. -/
theorem b_block (c : Dev nD) (t : Fin cfg0.N) (j : Fin 2048) :
    Hand.iblk m c 3 t (ix2 0 j) = Hand.V m c main_v3 (ix2 0 j) := by
  obtain ⟨-, -, -, -, -, -, e0, e1, -⟩ := idx_facts t
  show Hand.V m c main_v3 (((cfg0.win 3).blk t).view.emb (ix2 0 j)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 2048 + 1 * j.val = j.val; rw [e1]; omega

/-! ## The gates' weights and biases, as the cell reads them -/

/-- The gates' input weights, hidden weights and biases of the launch memory on core `c`. -/
def Wm (c : Dev nD) : Fin 4 → Fin 512 → Fin 512 → EReal :=
  gates (rows (m ((c : Thread nD τ).loc main_arg2))) (rows (m ((c : Thread nD τ).loc main_arg3)))
    (rows (m ((c : Thread nD τ).loc main_arg4))) (rows (m ((c : Thread nD τ).loc main_arg5)))
def Um (c : Dev nD) : Fin 4 → Fin 512 → Fin 512 → EReal :=
  gates (rows (m ((c : Thread nD τ).loc main_arg10))) (rows (m ((c : Thread nD τ).loc main_arg11)))
    (rows (m ((c : Thread nD τ).loc main_arg12))) (rows (m ((c : Thread nD τ).loc main_arg13)))
def bm (c : Dev nD) : Fin 4 → Fin 512 → EReal :=
  gates (elts (m ((c : Thread nD τ).loc main_arg6))) (elts (m ((c : Thread nD τ).loc main_arg7)))
    (elts (m ((c : Thread nD τ).loc main_arg8))) (elts (m ((c : Thread nD τ).loc main_arg9)))

theorem gates_rows (a0 a1 a2 a3 : Mat 512 512) (g : Fin 4) (h k : Fin 512) :
    gates a0 a1 a2 a3 g (ix2 h k) = gates (rows a0) (rows a1) (rows a2) (rows a3) g h k := by
  match g with
  | ⟨0, _⟩ => rfl
  | ⟨1, _⟩ => rfl
  | ⟨2, _⟩ => rfl
  | ⟨3, _⟩ => rfl

theorem gates_elts (a0 a1 a2 a3 : Vct 512) (g : Fin 4) (h : Fin 512) :
    gates a0 a1 a2 a3 g (ix1 h) = gates (elts a0) (elts a1) (elts a2) (elts a3) g h := by
  match g with
  | ⟨0, _⟩ => rfl
  | ⟨1, _⟩ => rfl
  | ⟨2, _⟩ => rfl
  | ⟨3, _⟩ => rfl

theorem w_upper (c : Dev nD) (t : Fin cfg0.N) (g : Fin 4) (h k : Fin 512) :
    Hand.iblk m c 2 t (ix2 ⟨k.val, by omega⟩ (gcol g h)) = Wm m c g h k := by
  rw [w_block, HostSide.V_wall, HostSide.wall_upper]
  exact gates_rows _ _ _ _ g h k

theorem w_lower (c : Dev nD) (t : Fin cfg0.N) (g : Fin 4) (h k : Fin 512) :
    Hand.iblk m c 2 t (ix2 ⟨512 + k.val, by omega⟩ (gcol g h)) = Um m c g h k := by
  rw [w_block, HostSide.V_wall, HostSide.wall_lower]
  exact gates_rows _ _ _ _ g h k

theorem b_gate (c : Dev nD) (t : Fin cfg0.N) (g : Fin 4) (h : Fin 512) :
    Hand.iblk m c 3 t (ix2 0 (gcol g h)) = bm m c g h := by
  rw [b_block, HostSide.V_bias, HostSide.bias_at]
  exact gates_elts _ _ _ _ g h

/-! ## From blocks to the arrays -/

/-- The two results as arrays of the launch memory's argument arrays. -/
def hiddenOf (c : Dev nD) : Mat 16384 512 := hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
def cellOf (c : Dev nD) : Mat 16384 512 := cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- What point `t` writes back of the hidden state is block `t` of the hidden array of the arguments. -/
theorem flushed4_eq (c : Dev nD) (t : Fin cfg0.N) :
    (Hand.dats m 0 c).flushed 4 t = ((cfg0.win 4).blk t).view.read (Elt Ideal) (hiddenOf m c) := by
  show (cfg0.win 4).cut (grid0.coords t) ((Hand.dats m 0 c).after 4 t) = _
  rw [Hand.after_4]
  unfold Hand.outH
  rw [View.canon_unit_zero hz2]
  simp only [View.ld_unit_zero (S := S512x512) hz2, View.ld_unit_zero (S := S1024x2048) hz2, View.ld_unit_zero (S := S1x2048) hz2]
  funext y
  obtain ⟨p, q, rfl⟩ : ∃ (p q : Fin 512), y = ix2 p q := ⟨y 0, y 1, eq_ix2 y⟩
  have e0 : win0_4.index t (0 : Fin 2) = t.val := by have := idx_facts t; exact this.2.2.2.2.2.2.2.2.1
  have e1 : win0_4.index t (1 : Fin 2) = 0 := by have := idx_facts t; exact this.2.2.2.2.2.2.2.2.2.1
  refine (Body.hidden_block (Hand.iblk m c 0 t) (Hand.iblk m c 1 t) (Hand.iblk m c 2 t) (Hand.iblk m c 3 t)
    (rows (m ((c : Thread nD τ).loc main_arg1)) (brow t p)) (rows (m ((c : Thread nD τ).loc main_arg0)) (brow t p)) (Wm m c) (Um m c) (bm m c) p
    (fun k => x_block m c t p k) (fun k => z_block m c t p k) (fun g h k => w_upper m c t g h k) (fun g h k => w_lower m c t g h k)
    (fun g h => b_gate m c t g h) q).trans ?_
  show _ = hiddenOf m c (((cfg0.win 4).blk t).view.emb (ix2 p q))
  have hi : ((cfg0.win 4).blk t).view.emb (ix2 p q) = ix2 (brow t p) q := funext fun a => Fin.ext (by
    match a with
    | ⟨0, _⟩ => show win0_4.index t (0 : Fin 2) * 512 + 1 * p.val = t.val * 512 + p.val; rw [e0]; omega
    | ⟨1, _⟩ => show win0_4.index t (1 : Fin 2) * 512 + 1 * q.val = q.val; rw [e1]; omega)
  rw [hi]
  rfl

/-- An index of the hidden array is in point `t`'s block iff each coordinate is in the block's range on its axis. -/
theorem mem_blk4 (t : Fin cfg0.N) (i : S16384x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v8_0).slice (win0_4.rect t)).set ↔ _
  rw [View.set_slice_whole, Rect.mem_set_unit]
  exact Iff.rfl

/-- Every row of the hidden array is in the block of the point its row number over 512 names. -/
theorem cover4 (i : S16384x512.Idx) : ∃ t : Fin cfg0.N, (cfg0.win 4).flush t = true ∧ i ∈ ((cfg0.win 4).blk t).view.set := by
  have hi0 : (i 0).val < 16384 := (i 0).isLt
  have hi1 : (i 1).val < 512 := (i 1).isLt
  have hN : cfg0.N = 32 := N_0
  have ht : (i 0).val / 512 < cfg0.N := by rw [hN]; omega
  have e0 : win0_4.index ⟨(i 0).val / 512, ht⟩ (0 : Fin 2) = (i 0).val / 512 := by have := idx_facts ⟨(i 0).val / 512, ht⟩; exact this.2.2.2.2.2.2.2.2.1
  have e1 : win0_4.index ⟨(i 0).val / 512, ht⟩ (1 : Fin 2) = 0 := by have := idx_facts ⟨(i 0).val / 512, ht⟩; exact this.2.2.2.2.2.2.2.2.2.1
  refine ⟨⟨(i 0).val / 512, ht⟩, flush0_4 _, ?_⟩
  rw [mem_blk4]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [e0]; omega
  | ⟨1, _⟩ =>
    show win0_4.index ⟨(i 0).val / 512, ht⟩ (1 : Fin 2) * 512 ≤ (i 1).val ∧ (i 1).val < win0_4.index ⟨(i 0).val / 512, ht⟩ (1 : Fin 2) * 512 + 512
    rw [e1]; omega

/-- The hidden array after the run. -/
theorem final4 (c : Dev nD) : (Hand.dats m 0 c).arrAt 4 cfg0.N = hiddenOf m c :=
  (Hand.dats m 0 c).arrAt_eq_of_cover 4 (hiddenOf m c) (fun t _ => flushed4_eq m c t) cover4

/-- What point `t` writes back of the cell state is block `t` of the cell array of the arguments. -/
theorem flushed5_eq (c : Dev nD) (t : Fin cfg0.N) :
    (Hand.dats m 0 c).flushed 5 t = ((cfg0.win 5).blk t).view.read (Elt Ideal) (cellOf m c) := by
  show (cfg0.win 5).cut (grid0.coords t) ((Hand.dats m 0 c).after 5 t) = _
  rw [Hand.after_5]
  unfold Hand.outC
  rw [View.canon_unit_zero hz2]
  simp only [View.ld_unit_zero (S := S512x512) hz2, View.ld_unit_zero (S := S1024x2048) hz2, View.ld_unit_zero (S := S1x2048) hz2]
  funext y
  obtain ⟨p, q, rfl⟩ : ∃ (p q : Fin 512), y = ix2 p q := ⟨y 0, y 1, eq_ix2 y⟩
  have e0 : win0_5.index t (0 : Fin 2) = t.val := by have := idx_facts t; exact this.2.2.2.2.2.2.2.2.2.2.1
  have e1 : win0_5.index t (1 : Fin 2) = 0 := by have := idx_facts t; exact this.2.2.2.2.2.2.2.2.2.2.2
  refine (Body.cell_block (Hand.iblk m c 0 t) (Hand.iblk m c 1 t) (Hand.iblk m c 2 t) (Hand.iblk m c 3 t)
    (rows (m ((c : Thread nD τ).loc main_arg1)) (brow t p)) (rows (m ((c : Thread nD τ).loc main_arg0)) (brow t p)) (Wm m c) (Um m c) (bm m c) p
    (fun k => x_block m c t p k) (fun k => z_block m c t p k) (fun g h k => w_upper m c t g h k) (fun g h k => w_lower m c t g h k)
    (fun g h => b_gate m c t g h) q).trans ?_
  show _ = cellOf m c (((cfg0.win 5).blk t).view.emb (ix2 p q))
  have hi : ((cfg0.win 5).blk t).view.emb (ix2 p q) = ix2 (brow t p) q := funext fun a => Fin.ext (by
    match a with
    | ⟨0, _⟩ => show win0_5.index t (0 : Fin 2) * 512 + 1 * p.val = t.val * 512 + p.val; rw [e0]; omega
    | ⟨1, _⟩ => show win0_5.index t (1 : Fin 2) * 512 + 1 * q.val = q.val; rw [e1]; omega)
  rw [hi]
  rfl

/-- An index of the cell array is in point `t`'s block iff each coordinate is in the block's range on its axis. -/
theorem mem_blk5 (t : Fin cfg0.N) (i : S16384x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v8_1).slice (win0_5.rect t)).set ↔ _
  rw [View.set_slice_whole, Rect.mem_set_unit]
  exact Iff.rfl

/-- Every row of the cell array is in the block of the point its row number over 512 names. -/
theorem cover5 (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  have hN : cfg0.N = 32 := N_0
  have ht : (i 0).val / 512 < cfg0.N := by rw [hN]; omega
  have e0 : win0_5.index ⟨(i 0).val / 512, ht⟩ (0 : Fin 2) = (i 0).val / 512 := by have := idx_facts ⟨(i 0).val / 512, ht⟩; exact this.2.2.2.2.2.2.2.2.2.2.1
  have e1 : win0_5.index ⟨(i 0).val / 512, ht⟩ (1 : Fin 2) = 0 := by have := idx_facts ⟨(i 0).val / 512, ht⟩; exact this.2.2.2.2.2.2.2.2.2.2.2
  refine ⟨⟨(i 0).val / 512, ht⟩, flush0_5 _, ?_⟩
  rw [mem_blk5]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e0]; omega
  | ⟨1, _⟩ =>
    show win0_5.index ⟨(i 0).val / 512, ht⟩ (1 : Fin 2) * 512 ≤ (i 1).val ∧ (i 1).val < win0_5.index ⟨(i 0).val / 512, ht⟩ (1 : Fin 2) * 512 + 512
    rw [e1]; omega

/-- The cell array after the run. -/
theorem final5 (c : Dev nD) : (Hand.dats m 0 c).arrAt 5 cfg0.N = cellOf m c :=
  (Hand.dats m 0 c).arrAt_eq_of_cover 5 (cellOf m c) (fun t _ => flushed5_eq m c t) cover5

/-! ## The run, read -/

/-- Every weakly fair execution of the kernel's program terminates with the first result at the next hidden state, the
    second at the next cell state, and every argument array as launched. -/
theorem run : θ_run defs (onTc (τ := τ) (main (F := Ideal))) ⟨m, fun _ => 0, ρ⟩ fun r => ∀ c : Dev nD,
      r.2.mem ((c.tc : Thread nD τ).loc main_v8_0) = hiddenOf m c
      ∧ r.2.mem ((c.tc : Thread nD τ).loc main_v8_1) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 4).trans (final4 m c), ((h c).1 5).trans (final5 m c), Hand.kept_all m r h c⟩)
    (Hand.run_main m ρ)

end Cert.KernelIdeal.HandValue

end
-- ==== Proof.RefValue.lean ====
/-
  The reference's two results, read at an entry, are the row-wise LSTM cell of `LstmSpec`.

  The reference stacks the four input-weight matrices (4 × 512 × 512), contracts the stack with `x` over the input
  axis, adds the stacked biases, adds the same contraction of the stacked hidden weights with `z`, and cuts the result
  (4 × 16384 × 512) into its four gates; the logistic function is spelt `1 / (1 + e⁻ᵖ)`. At gate `g`, batch row `b` and
  unit `h` the stack holds `(Σₖ W_g[h,k]·x[b,k] + bias_g[h]) + Σₖ U_g[h,k]·z[b,k]`, which is `preSplit`, hence `preFused`.
-/
import proofs.«155815_j5557687681205_2_alg».proof.Proof.Gen.ReferenceIdeal.Read
import proofs.«155815_j5557687681205_2_alg».proof.Proof.LstmSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx
open Cert.LstmSpec

/-! ## The stacks -/

/-- A matrix given a leading axis of extent one, read at an entry. -/
theorem lift_mat (a : FVec Ideal S512x512 .f32) (h k : Fin 512) :
    broadcastInDim S1x512x512 ![1, 2] Facts₀.bcast_S512x512_S1x512x512_1_2 a (ix3 0 h k) = a (ix2 h k) :=
  broadcastInDim_apply _ Facts₀.bcast_S512x512_S1x512x512_1_2 a (ix3 0 h k) (ix2 h k) (fun d => match d with
    | ⟨0, _⟩ => by show h.val = if (512 : Nat) = 1 then 0 else h.val; rw [if_neg (by decide)]
    | ⟨1, _⟩ => by show k.val = if (512 : Nat) = 1 then 0 else k.val; rw [if_neg (by decide)])

/-- A vector given a leading axis of extent one, read at an entry. -/
theorem lift_vec (a : FVec Ideal S512 .f32) (h : Fin 512) :
    broadcastInDim S1x512 ![1] Facts₀.bcast_S512_S1x512_1 a (ix2 0 h) = a (ix1 h) :=
  broadcastInDim_apply _ Facts₀.bcast_S512_S1x512_1 a (ix2 0 h) (ix1 h) (fun d => match d with
    | ⟨0, _⟩ => by show h.val = if (512 : Nat) = 1 then 0 else h.val; rw [if_neg (by decide)])

/-- Four matrices stacked along a new leading axis: slab `g` is matrix `g`. -/
theorem stack_mat (a0 a1 a2 a3 : FVec Ideal S512x512 .f32) (g : Fin 4) (h k : Fin 512) :
    concatenate S4x512x512 0
        [⟨S1x512x512, broadcastInDim S1x512x512 ![1, 2] Facts₀.bcast_S512x512_S1x512x512_1_2 a0⟩,
         ⟨S1x512x512, broadcastInDim S1x512x512 ![1, 2] Facts₀.bcast_S512x512_S1x512x512_1_2 a1⟩,
         ⟨S1x512x512, broadcastInDim S1x512x512 ![1, 2] Facts₀.bcast_S512x512_S1x512x512_1_2 a2⟩,
         ⟨S1x512x512, broadcastInDim S1x512x512 ![1, 2] Facts₀.bcast_S512x512_S1x512x512_1_2 a3⟩]
        Facts₀.concatenates_S1x512x512_S1x512x512_S1x512x512_S1x512x512_S4x512x512_d0 (ix3 g h k)
      = gates a0 a1 a2 a3 g (ix2 h k) := by
  match g with
  | ⟨0, _⟩ =>
    exact (concatenate_apply_piece (t := S4x512x512) (0 : Fin 3) _ _ (ix3 0 h k) 0 (by simp) S1x512x512 _ rfl rfl 0 rfl (ix3 0 h k)
      (fun b hb => by match b with | ⟨0, _⟩ => exact absurd rfl hb | ⟨1, _⟩ => rfl | ⟨2, _⟩ => rfl) rfl).trans (lift_mat a0 h k)
  | ⟨1, _⟩ =>
    exact (concatenate_apply_piece (t := S4x512x512) (0 : Fin 3) _ _ (ix3 1 h k) 1 (by simp) S1x512x512 _ rfl rfl 1 rfl (ix3 0 h k)
      (fun b hb => by match b with | ⟨0, _⟩ => exact absurd rfl hb | ⟨1, _⟩ => rfl | ⟨2, _⟩ => rfl) rfl).trans (lift_mat a1 h k)
  | ⟨2, _⟩ =>
    exact (concatenate_apply_piece (t := S4x512x512) (0 : Fin 3) _ _ (ix3 2 h k) 2 (by simp) S1x512x512 _ rfl rfl 2 rfl (ix3 0 h k)
      (fun b hb => by match b with | ⟨0, _⟩ => exact absurd rfl hb | ⟨1, _⟩ => rfl | ⟨2, _⟩ => rfl) rfl).trans (lift_mat a2 h k)
  | ⟨3, _⟩ =>
    exact (concatenate_apply_piece (t := S4x512x512) (0 : Fin 3) _ _ (ix3 3 h k) 3 (by simp) S1x512x512 _ rfl rfl 3 rfl (ix3 0 h k)
      (fun b hb => by match b with | ⟨0, _⟩ => exact absurd rfl hb | ⟨1, _⟩ => rfl | ⟨2, _⟩ => rfl) rfl).trans (lift_mat a3 h k)

/-- Four vectors stacked along a new leading axis: row `g` is vector `g`. -/
theorem stack_vec (a0 a1 a2 a3 : FVec Ideal S512 .f32) (g : Fin 4) (h : Fin 512) :
    concatenate S4x512 0
        [⟨S1x512, broadcastInDim S1x512 ![1] Facts₀.bcast_S512_S1x512_1 a0⟩,
         ⟨S1x512, broadcastInDim S1x512 ![1] Facts₀.bcast_S512_S1x512_1 a1⟩,
         ⟨S1x512, broadcastInDim S1x512 ![1] Facts₀.bcast_S512_S1x512_1 a2⟩,
         ⟨S1x512, broadcastInDim S1x512 ![1] Facts₀.bcast_S512_S1x512_1 a3⟩]
        Facts₀.concatenates_S1x512_S1x512_S1x512_S1x512_S4x512_d0 (ix2 g h)
      = gates a0 a1 a2 a3 g (ix1 h) := by
  match g with
  | ⟨0, _⟩ =>
    exact (concatenate_apply_piece (t := S4x512) (0 : Fin 2) _ _ (ix2 0 h) 0 (by simp) S1x512 _ rfl rfl 0 rfl (ix2 0 h)
      (fun b hb => by match b with | ⟨0, _⟩ => exact absurd rfl hb | ⟨1, _⟩ => rfl) rfl).trans (lift_vec a0 h)
  | ⟨1, _⟩ =>
    exact (concatenate_apply_piece (t := S4x512) (0 : Fin 2) _ _ (ix2 1 h) 1 (by simp) S1x512 _ rfl rfl 1 rfl (ix2 0 h)
      (fun b hb => by match b with | ⟨0, _⟩ => exact absurd rfl hb | ⟨1, _⟩ => rfl) rfl).trans (lift_vec a1 h)
  | ⟨2, _⟩ =>
    exact (concatenate_apply_piece (t := S4x512) (0 : Fin 2) _ _ (ix2 2 h) 2 (by simp) S1x512 _ rfl rfl 2 rfl (ix2 0 h)
      (fun b hb => by match b with | ⟨0, _⟩ => exact absurd rfl hb | ⟨1, _⟩ => rfl) rfl).trans (lift_vec a2 h)
  | ⟨3, _⟩ =>
    exact (concatenate_apply_piece (t := S4x512) (0 : Fin 2) _ _ (ix2 3 h) 3 (by simp) S1x512 _ rfl rfl 3 rfl (ix2 0 h)
      (fun b hb => by match b with | ⟨0, _⟩ => exact absurd rfl hb | ⟨1, _⟩ => rfl) rfl).trans (lift_vec a3 h)

/-! ## The pre-activations -/

variable (x0 x1 : FVec Ideal S16384x512 .f32) (x2 x3 x4 x5 : FVec Ideal S512x512 .f32) (x6 x7 x8 x9 : FVec Ideal S512 .f32)
  (x10 x11 x12 x13 : FVec Ideal S512x512 .f32)

/-- The input contraction of gate `g` at batch row `b`, unit `h`. -/
theorem in_dot (g : Fin 4) (b : Fin 16384) (h : Fin 512) :
    val_main_v16 (F := Ideal) x1 x2 x3 x4 x5 (ix3 g b h) = ∑ k : Fin 512, gates x2 x3 x4 x5 g (ix2 h k) * x1 (ix2 b k) := by
  rw [val_main_v16_apply, val_main_v15_apply]
  refine Finset.sum_congr rfl fun k _ => ?_
  have el : lidx_main_v15 (idx_main_v16 (ix3 g b h)) k = ix3 g h k :=
    funext fun a => by match a with | ⟨0, _⟩ => rfl | ⟨1, _⟩ => rfl | ⟨2, _⟩ => rfl
  have er : ridx_main_v15 (idx_main_v16 (ix3 g b h)) k = ix2 b k :=
    funext fun a => by match a with | ⟨0, _⟩ => rfl | ⟨1, _⟩ => rfl
  rw [el, er]
  exact congrArg (· * x1 (ix2 b k)) (stack_mat x2 x3 x4 x5 g h k)

/-- The hidden contraction of gate `g` at batch row `b`, unit `h`. -/
theorem hid_dot (g : Fin 4) (b : Fin 16384) (h : Fin 512) :
    val_main_v21 (F := Ideal) x0 x10 x11 x12 x13 (ix3 g b h) = ∑ k : Fin 512, gates x10 x11 x12 x13 g (ix2 h k) * x0 (ix2 b k) := by
  rw [val_main_v21_apply, val_main_v20_apply]
  refine Finset.sum_congr rfl fun k _ => ?_
  have el : lidx_main_v20 (idx_main_v21 (ix3 g b h)) k = ix3 g h k :=
    funext fun a => by match a with | ⟨0, _⟩ => rfl | ⟨1, _⟩ => rfl | ⟨2, _⟩ => rfl
  have er : ridx_main_v20 (idx_main_v21 (ix3 g b h)) k = ix2 b k :=
    funext fun a => by match a with | ⟨0, _⟩ => rfl | ⟨1, _⟩ => rfl
  rw [el, er]
  exact congrArg (· * x0 (ix2 b k)) (stack_mat x10 x11 x12 x13 g h k)

/-- The bias of gate `g`, broadcast over the batch. -/
theorem bias_bc (g : Fin 4) (b : Fin 16384) (h : Fin 512) :
    val_main_v18 (F := Ideal) x6 x7 x8 x9 (ix3 g b h) = gates x6 x7 x8 x9 g (ix1 h) := by
  rw [val_main_v18_apply, val_main_v17_apply]
  have e : idx_main_v17 (idx_main_v18 (ix3 g b h)) = ix2 g h :=
    funext fun a => by match a with | ⟨0, _⟩ => rfl | ⟨1, _⟩ => rfl
  rw [e]
  exact stack_vec x6 x7 x8 x9 g h

/-- The stacked pre-activations: gate `g`, batch row `b`, unit `h`. -/
theorem pre_stack (g : Fin 4) (b : Fin 16384) (h : Fin 512) :
    val_main_v22 (F := Ideal) x0 x1 x2 x3 x4 x5 x6 x7 x8 x9 x10 x11 x12 x13 (ix3 g b h)
      = preFused (rows x1 b) (rows x0 b) (gates (rows x2) (rows x3) (rows x4) (rows x5) g)
          (gates (rows x10) (rows x11) (rows x12) (rows x13) g) (gates (elts x6) (elts x7) (elts x8) (elts x9) g) h := by
  rw [← preSplit_eq_preFused, val_main_v22_apply, val_main_v19_apply, in_dot, hid_dot, bias_bc]
  unfold preSplit
  match g with
  | ⟨0, _⟩ => rfl
  | ⟨1, _⟩ => rfl
  | ⟨2, _⟩ => rfl
  | ⟨3, _⟩ => rfl

/-! ## The gates -/

/-- Where the four slabs of the stack are read, as 16384 × 512 matrices. -/
theorem slab0 (b : Fin 16384) (h : Fin 512) : idx_main_v23 (idx_main_v24 (ix2 b h)) = ix3 0 b h :=
  funext fun a => by
    match a with
    | ⟨0, _⟩ => rfl
    | ⟨1, _⟩ => exact Fin.ext (by show (b.val * 512 + h.val) / 512 % 16384 = b.val; have := b.isLt; have := h.isLt; omega)
    | ⟨2, _⟩ => exact Fin.ext (by show (b.val * 512 + h.val) % 512 = h.val; have := h.isLt; omega)
theorem slab1 (b : Fin 16384) (h : Fin 512) : idx_main_v31 (idx_main_v32 (ix2 b h)) = ix3 1 b h :=
  funext fun a => by
    match a with
    | ⟨0, _⟩ => rfl
    | ⟨1, _⟩ => exact Fin.ext (by show (b.val * 512 + h.val) / 512 % 16384 = b.val; have := b.isLt; have := h.isLt; omega)
    | ⟨2, _⟩ => exact Fin.ext (by show (b.val * 512 + h.val) % 512 = h.val; have := h.isLt; omega)
theorem slab2 (b : Fin 16384) (h : Fin 512) : idx_main_v39 (idx_main_v40 (ix2 b h)) = ix3 2 b h :=
  funext fun a => by
    match a with
    | ⟨0, _⟩ => rfl
    | ⟨1, _⟩ => exact Fin.ext (by show (b.val * 512 + h.val) / 512 % 16384 = b.val; have := b.isLt; have := h.isLt; omega)
    | ⟨2, _⟩ => exact Fin.ext (by show (b.val * 512 + h.val) % 512 = h.val; have := h.isLt; omega)
theorem slab3 (b : Fin 16384) (h : Fin 512) : idx_main_v42 (idx_main_v43 (ix2 b h)) = ix3 3 b h :=
  funext fun a => by
    match a with
    | ⟨0, _⟩ => rfl
    | ⟨1, _⟩ => exact Fin.ext (by show (b.val * 512 + h.val) / 512 % 16384 = b.val; have := b.isLt; have := h.isLt; omega)
    | ⟨2, _⟩ => exact Fin.ext (by show (b.val * 512 + h.val) % 512 = h.val; have := h.isLt; omega)

/-- The logistic function as the reference spells it: `1 / (1 + e⁻ᵖ)`, the two ones float patterns. -/
theorem sigmoid_spelt (p : EReal) :
    Ideal.div (Ideal.ofBits .f32 0x3F800000#32) (Ideal.ofBits .f32 0x3F800000#32 + Ideal.exp (-p)) = Ideal.logistic p := by
  rw [ofBits_one]; rfl

/-- The gates' weights and biases as the cell reads them. -/
abbrev Wr : Fin 4 → Fin 512 → Fin 512 → EReal := gates (rows x2) (rows x3) (rows x4) (rows x5)
abbrev Ur : Fin 4 → Fin 512 → Fin 512 → EReal := gates (rows x10) (rows x11) (rows x12) (rows x13)
abbrev br : Fin 4 → Fin 512 → EReal := gates (elts x6) (elts x7) (elts x8) (elts x9)

/-- The input gate. -/
theorem gate_i (b : Fin 16384) (h : Fin 512) :
    val_main_v30 (F := Ideal) x0 x1 x2 x3 x4 x5 x6 x7 x8 x9 x10 x11 x12 x13 (ix2 b h)
      = Ideal.logistic (preFused (rows x1 b) (rows x0 b) (Wr x2 x3 x4 x5 0) (Ur x10 x11 x12 x13 0) (br x6 x7 x8 x9 0) h) := by
  rw [val_main_v30_apply, val_main_v29_apply, val_main_cst_0_apply, val_main_v28_apply, val_main_v27_apply, val_main_cst_apply,
    val_main_v26_apply, val_main_v25_apply, val_main_v24_apply, val_main_v23_apply, slab0, pre_stack]
  exact sigmoid_spelt _

/-- The forget gate. -/
theorem gate_f (b : Fin 16384) (h : Fin 512) :
    val_main_v38 (F := Ideal) x0 x1 x2 x3 x4 x5 x6 x7 x8 x9 x10 x11 x12 x13 (ix2 b h)
      = Ideal.logistic (preFused (rows x1 b) (rows x0 b) (Wr x2 x3 x4 x5 1) (Ur x10 x11 x12 x13 1) (br x6 x7 x8 x9 1) h) := by
  rw [val_main_v38_apply, val_main_v37_apply, val_main_cst_2_apply, val_main_v36_apply, val_main_v35_apply, val_main_cst_1_apply,
    val_main_v34_apply, val_main_v33_apply, val_main_v32_apply, val_main_v31_apply, slab1, pre_stack]
  exact sigmoid_spelt _

/-- The candidate. -/
theorem gate_c (b : Fin 16384) (h : Fin 512) :
    val_main_v41 (F := Ideal) x0 x1 x2 x3 x4 x5 x6 x7 x8 x9 x10 x11 x12 x13 (ix2 b h)
      = Ideal.tanh (preFused (rows x1 b) (rows x0 b) (Wr x2 x3 x4 x5 2) (Ur x10 x11 x12 x13 2) (br x6 x7 x8 x9 2) h) := by
  rw [val_main_v41_apply, val_main_v40_apply, val_main_v39_apply, slab2, pre_stack]
  rfl

/-- The output gate. -/
theorem gate_o (b : Fin 16384) (h : Fin 512) :
    val_main_v49 (F := Ideal) x0 x1 x2 x3 x4 x5 x6 x7 x8 x9 x10 x11 x12 x13 (ix2 b h)
      = Ideal.logistic (preFused (rows x1 b) (rows x0 b) (Wr x2 x3 x4 x5 3) (Ur x10 x11 x12 x13 3) (br x6 x7 x8 x9 3) h) := by
  rw [val_main_v49_apply, val_main_v48_apply, val_main_cst_4_apply, val_main_v47_apply, val_main_v46_apply, val_main_cst_3_apply,
    val_main_v45_apply, val_main_v44_apply, val_main_v43_apply, val_main_v42_apply, slab3, pre_stack]
  exact sigmoid_spelt _

/-! ## The two results -/

/-- The reference's second result is the next cell state. -/
theorem cell_eq : val_main_v52 (F := Ideal) x0 x1 x2 x3 x4 x5 x6 x7 x8 x9 x10 x11 x12 x13 = cellArr x0 x1 x2 x3 x4 x5 x6 x7 x8 x9 x10 x11 x12 x13 := by
  funext i
  obtain ⟨b, h, rfl⟩ : ∃ (b : Fin 16384) (h : Fin 512), i = ix2 b h := ⟨i 0, i 1, eq_ix2 i⟩
  rw [val_main_v52_apply, val_main_v50_apply, val_main_v51_apply, gate_f, gate_i, gate_c]
  rfl

/-- The reference's first result is the next hidden state. -/
theorem hidden_eq : val_main_v54 (F := Ideal) x0 x1 x2 x3 x4 x5 x6 x7 x8 x9 x10 x11 x12 x13 = hiddenArr x0 x1 x2 x3 x4 x5 x6 x7 x8 x9 x10 x11 x12 x13 := by
  funext i
  obtain ⟨b, h, rfl⟩ : ∃ (b : Fin 16384) (h : Fin 512), i = ix2 b h := ⟨i 0, i 1, eq_ix2 i⟩
  rw [val_main_v54_apply, val_main_v53_apply, gate_o, cell_eq]
  rfl

end Cert.ReferenceIdeal.RefValue

end
-- ==== Proof.lean ====
/-
  The certificate of the fused LSTM cell kernel against its reference.

  The kernel fuses the eight matrix products of an LSTM cell into one: on the host it stacks and transposes the four
  input-weight and four hidden-weight matrices into one 1024 × 2048 matrix and lays the four biases end to end; in a
  pipelined region over 32 blocks of 512 batch rows it multiplies `[x | z]` by the fused matrix, adds the bias row, and
  applies the gates. The reference contracts the stacked weights with `x` and with `z` separately, adds the biases to the
  first contraction, and spells the logistic function out. Over the extended reals both compute, at every batch row and
  hidden unit, the cell of `LstmSpec`: the two pre-activation spellings differ by commuting and re-associating sums and
  products, and a change of float format is the identity, so no finiteness of the inputs is used.

  The frames: each kernel program runs its host operations, then the region, whose body loads whole blocks and stores
  whole blocks (`FrameBits`, `FrameIdeal`); the reference is a straight line of host operations. The idealization
  rewrote nothing, so `preserves` has no conjunct.
-/
import proofs.«155815_j5557687681205_2_alg».proof.Defs
import proofs.«155815_j5557687681205_2_alg».proof.Proof.Gen.Kernel
import proofs.«155815_j5557687681205_2_alg».proof.Proof.Gen.KernelIdeal
import proofs.«155815_j5557687681205_2_alg».proof.Proof.Gen.ReferenceIdeal
import proofs.«155815_j5557687681205_2_alg».proof.Proof.Gen.Pre_finite_inputs
import proofs.«155815_j5557687681205_2_alg».proof.Proof.Gen.ReferenceIdeal.Run
import proofs.«155815_j5557687681205_2_alg».proof.Proof.Gen.ReferenceIdeal.Read
import proofs.«155815_j5557687681205_2_alg».proof.Proof.FrameBits
import proofs.«155815_j5557687681205_2_alg».proof.Proof.FrameIdeal
import proofs.«155815_j5557687681205_2_alg».proof.Proof.KernelValue
import proofs.«155815_j5557687681205_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments the kernel's two result arrays end at the next hidden and cell states of
    the arguments, and the reference's two results are those same arrays. -/
theorem algebraic : Cert.algebraic_KernelIdeal_ReferenceIdeal := by
  intro m ρ m' ρ' _ hagree
  refine ⟨fun c => Cert.KernelIdeal.HandValue.hiddenOf m c, fun c => Cert.KernelIdeal.HandValue.cellOf m c,
    Cert.KernelIdeal.HandValue.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13⟩ := hagree c
    rw [Cert.ReferenceIdeal.Read.val_main_v54_eq, Cert.ReferenceIdeal.RefValue.hidden_eq,
      a0, a1, a2, a3, a4, a5, a6, a7, a8, a9, a10, a11, a12, a13]
    rfl
  · obtain ⟨a0, a1, a2, a3, a4, a5, a6, a7, a8, a9, a10, a11, a12, a13⟩ := hagree c
    rw [Cert.ReferenceIdeal.Read.val_main_v52_eq, Cert.ReferenceIdeal.RefValue.cell_eq,
      a0, a1, a2, a3, a4, a5, a6, a7, a8, a9, a10, a11, a12, a13]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
